-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x64 : Shape := ⟨2, ![262144, 64]⟩
abbrev S64 : Shape := ⟨1, ![64]⟩
abbrev S64x256 : Shape := ⟨2, ![64, 256]⟩
abbrev S256 : Shape := ⟨1, ![256]⟩
abbrev S_ : Shape := ⟨0, ![]⟩

class Facts : Prop where
  bcast_S_S262144x64 : S_.BroadcastsInDim S262144x64 (![] : Fin 0 → Fin S262144x64.rank)
  reducesTo_S262144x64_S_d0_1 : S262144x64.ReducesTo [0, 1] S_
  h_S_ : 0 < S_.numel
  bcast_S_S64 : S_.BroadcastsInDim S64 (![] : Fin 0 → Fin S64.rank)
  reducesTo_S64_S_d0 : S64.ReducesTo [0] S_
  bcast_S_S64x256 : S_.BroadcastsInDim S64x256 (![] : Fin 0 → Fin S64x256.rank)
  reducesTo_S64x256_S_d0_1 : S64x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S262144x64 .f32) (main_arg1 : FVec F S64 .f32) (main_arg2 : FVec F S64x256 .f32) (main_arg3 : FVec F S256 .f32) : IVec S_ 1 :=
  let main_v0 : FVec F S262144x64 .f32 := Host.absf main_arg0
  let main_cst : FVec F S_ .f32 := constant S_ .f32 0x7F800000#32
  let main_v1 : FVec F S262144x64 .f32 := broadcastInDim S262144x64 ![] bcast_S_S262144x64 main_cst
  let main_v2 : IVec S262144x64 1 := cmpf .olt main_v0 main_v1
  let main_c : IVec S_ 1 := constantI S_ 1 1#1
  let main_v3 : IVec S_ 1 := (fun x v => Host.reduce IntOp.andi x v reducesTo_S262144x64_S_d0_1 h_S_) main_v2 main_c
  let main_v4 : FVec F S64 .f32 := Host.absf main_arg1
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  let main_v9 : FVec F S64x256 .f32 := Host.absf main_arg2
  let main_cst_2 : FVec F S_ .f32 := constant S_ .f32 0x7F800000#32
  let main_v10 : FVec F S64x256 .f32 := broadcastInDim S64x256 ![] bcast_S_S64x256 main_cst_2
  let main_v11 : IVec S64x256 1 := cmpf .olt main_v9 main_v10
  let main_c_3 : IVec S_ 1 := constantI S_ 1 1#1
  let main_v12 : IVec S_ 1 := (fun x v => Host.reduce IntOp.andi x v reducesTo_S64x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S262144x64 : Shape := ⟨2, ![262144, 64]⟩
abbrev S64 : Shape := ⟨1, ![64]⟩
abbrev S64x256 : Shape := ⟨2, ![64, 256]⟩
abbrev S256 : Shape := ⟨1, ![256]⟩
abbrev S1x64 : Shape := ⟨2, ![1, 64]⟩
abbrev S1x256 : Shape := ⟨2, ![1, 256]⟩
abbrev S2048x64 : Shape := ⟨2, ![2048, 64]⟩
abbrev S2048x256 : Shape := ⟨2, ![2048, 256]⟩
abbrev S2048 : Shape := ⟨1, ![2048]⟩
abbrev S2048x1 : Shape := ⟨2, ![2048, 1]⟩

abbrev nBuf : Space → Nat
  | .hbm => 8
  | .vmem => 8
  | .smem => 0
  | _ => 0

abbrev bufTy : (tb : Table) → Fin (tcTables nBuf tb) → BufTy
  | .hbm, ⟨0, _⟩ => ⟨S262144x64, .f32⟩
  | .hbm, ⟨1, _⟩ => ⟨S64, .f32⟩
  | .hbm, ⟨2, _⟩ => ⟨S64x256, .f32⟩
  | .hbm, ⟨3, _⟩ => ⟨S256, .f32⟩
  | .hbm, ⟨4, _⟩ => ⟨S1x64, .f32⟩
  | .hbm, ⟨5, _⟩ => ⟨S1x256, .f32⟩
  | .hbm, ⟨6, _⟩ => ⟨S1x256, .f32⟩
  | .hbm, ⟨7, _⟩ => ⟨S262144x64, .f32⟩
  | .local _ .vmem, ⟨0, _⟩ => ⟨S2048x64, .f32⟩
  | .local _ .vmem, ⟨1, _⟩ => ⟨S2048x64, .f32⟩
  | .local _ .vmem, ⟨2, _⟩ => ⟨S1x64, .f32⟩
  | .local _ .vmem, ⟨3, _⟩ => ⟨S64x256, .f32⟩
  | .local _ .vmem, ⟨4, _⟩ => ⟨S1x256, .f32⟩
  | .local _ .vmem, ⟨5, _⟩ => ⟨S1x256, .f32⟩
  | .local _ .vmem, ⟨6, _⟩ => ⟨S2048x64, .f32⟩
  | .local _ .vmem, ⟨7, _⟩ => ⟨S2048x64, .f32⟩
  | _, _ => ⟨S262144x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S64_S1x64 : S64.ShapeCasts S1x64
  shapeCasts_S256_S1x256 : S256.ShapeCasts S1x256
  inb_S2048x64_S2048x64_0_0 : ∀ a, (![0, 0] : Fin 2 → Nat) a + S2048x64.size a ≤ S2048x64.size a
  h_S2048x64 : 0 < S2048x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S64x256_S64x256_0_0 : ∀ a, (![0, 0] : Fin 2 → Nat) a + S64x256.size a ≤ S64x256.size a
  h_S64x256 : 0 < S64x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  broadcasts_S1x64_S2048x64 : S1x64.Broadcasts S2048x64
  natLt_1_32 : 1 < 32
  reduces_S2048x256_S2048 : S2048x256.Reduces [1] S2048
  shapeCasts_S2048_S2048x1 : S2048.ShapeCasts S2048x1
  broadcasts_S2048x1_S2048x64 : S2048x1.Broadcasts S2048x64
  dot_S1x64_S64x256_S1x256_1_0_0_1_n_n_wf : DotDims.WF S1x64 S64x256 S1x256 [1] [0] [0] [1] [] []
  dot_S2048x64_S64x256_S2048x256_1_0_0_1_n_n_wf : DotDims.WF S2048x64 S64x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S262144x64.size a
  hwx0_0 : ∀ i : grid0.Coords, EltTy.bits .f32 = 32 ∨ (Rect.block (s := S262144x64) S2048x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x64.size a ≤ S1x64.size a
  hwx0_1 : ∀ i : grid0.Coords, EltTy.bits .f32 = 32 ∨ (Rect.block (s := S1x64) S1x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x256.size a ≤ S64x256.size a
  hwx0_2 : ∀ i : grid0.Coords, EltTy.bits .f32 = 32 ∨ (Rect.block (s := S64x256) S64x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x64.size a ≤ S262144x64.size a
  hwx0_5 : ∀ i : grid0.Coords, EltTy.bits .f32 = 32 ∨ (Rect.block (s := S262144x64) S2048x64.size (cc0_transform_5 i) (hinb0_5 i)).WholeWords (EltTy.packing .f32)

variable [Facts₀]

def dot_S1x64_S64x256_S1x256_1_0_0_1_n_n : DotDims S1x64 S64x256 S1x256 where
  lhsContracting := [1]
  rhsContracting := [0]
  lhsNonContracting := [0]
  rhsNonContracting := [1]
  lhsBatch := []
  rhsBatch := []
  wf := dot_S1x64_S64x256_S1x256_1_0_0_1_n_n_wf
def dot_S2048x64_S64x256_S2048x256_1_0_0_1_n_n : DotDims S2048x64 S64x256 S2048x256 where
  lhsContracting := [1]
  rhsContracting := [0]
  lhsNonContracting := [0]
  rhsNonContracting := [1]
  lhsBatch := []
  rhsBatch := []
  wf := dot_S2048x64_S64x256_S2048x256_1_0_0_1_n_n_wf

abbrev win0_0 : Pipeline.Window sig grid0 :=
  Pipeline.Window.ofSpec (Memref.whole main_arg0) S2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S2048x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S262144x64 : Shape := ⟨2, ![262144, 64]⟩
abbrev S64 : Shape := ⟨1, ![64]⟩
abbrev S64x256 : Shape := ⟨2, ![64, 256]⟩
abbrev S256 : Shape := ⟨1, ![256]⟩
abbrev S262144x256 : Shape := ⟨2, ![262144, 256]⟩
abbrev S1x256 : Shape := ⟨2, ![1, 256]⟩
abbrev S_ : Shape := ⟨0, ![]⟩
abbrev S1x64 : Shape := ⟨2, ![1, 64]⟩
abbrev S262144 : Shape := ⟨1, ![262144]⟩
abbrev S262144x1 : Shape := ⟨2, ![262144, 1]⟩

abbrev nBuf : Space → Nat
  | .hbm => 34
  | .vmem => 0
  | .smem => 0
  | _ => 0

abbrev bufTy : (tb : Table) → Fin (tcTables nBuf tb) → BufTy
  | .hbm, ⟨0, _⟩ => ⟨S262144x64, .f32⟩
  | .hbm, ⟨1, _⟩ => ⟨S64, .f32⟩
  | .hbm, ⟨2, _⟩ => ⟨S64x256, .f32⟩
  | .hbm, ⟨3, _⟩ => ⟨S256, .f32⟩
  | .hbm, ⟨4, _⟩ => ⟨S262144x256, .f32⟩
  | .hbm, ⟨5, _⟩ => ⟨S1x256, .f32⟩
  | .hbm, ⟨6, _⟩ => ⟨S262144x256, .f32⟩
  | .hbm, ⟨7, _⟩ => ⟨S262144x256, .f32⟩
  | .hbm, ⟨8, _⟩ => ⟨S_, .f32⟩
  | .hbm, ⟨9, _⟩ => ⟨S262144x256, .f32⟩
  | .hbm, ⟨10, _⟩ => ⟨S262144x256, .i1⟩
  | .hbm, ⟨11, _⟩ => ⟨S1x64, .f32⟩
  | .hbm, ⟨12, _⟩ => ⟨S262144x64, .f32⟩
  | .hbm, ⟨13, _⟩ => ⟨S262144x64, .f32⟩
  | .hbm, ⟨14, _⟩ => ⟨S262144x256, .f32⟩
  | .hbm, ⟨15, _⟩ => ⟨S_, .f32⟩
  | .hbm, ⟨16, _⟩ => ⟨S262144x256, .f32⟩
  | .hbm, ⟨17, _⟩ => ⟨S262144x256, .f32⟩
  | .hbm, ⟨18, _⟩ => ⟨S262144x256, .f32⟩
  | .hbm, ⟨19, _⟩ => ⟨S262144x256, .f32⟩
  | .hbm, ⟨20, _⟩ => ⟨S262144x256, .f32⟩
  | .hbm, ⟨21, _⟩ => ⟨S262144x256, .f32⟩
  | .hbm, ⟨22, _⟩ => ⟨S_, .f32⟩
  | .hbm, ⟨23, _⟩ => ⟨S262144, .f32⟩
  | .hbm, ⟨24, _⟩ => ⟨S_, .i1⟩
  | .hbm, ⟨25, _⟩ => ⟨S262144, .i1⟩
  | .hbm, ⟨26, _⟩ => ⟨S262144x1, .i1⟩
  | .hbm, ⟨27, _⟩ => ⟨S262144x1, .f32⟩
  | .hbm, ⟨28, _⟩ => ⟨S262144x1, .f32⟩
  | .hbm, ⟨29, _⟩ => ⟨S262144x64, .f32⟩
  | .hbm, ⟨30, _⟩ => ⟨S262144x64, .f32⟩
  | .hbm, ⟨31, _⟩ => ⟨S262144x64, .f32⟩
  | .hbm, ⟨32, _⟩ => ⟨S262144x64, .f32⟩
  | .hbm, ⟨33, _⟩ => ⟨S262144x64, .f32⟩
  | _, _ => ⟨S262144x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_c : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S262144x256_0_1 : S1x256.BroadcastsInDim S262144x256 (![0, 1] : Fin 2 → Fin S262144x256.rank)
  bcast_S_S262144x256 : S_.BroadcastsInDim S262144x256 (![] : Fin 0 → Fin S262144x256.rank)
  bcast_S64_S1x64_1 : S64.BroadcastsInDim S1x64 (![1] : Fin 1 → Fin S1x64.rank)
  bcast_S1x64_S262144x64_0_1 : S1x64.BroadcastsInDim S262144x64 (![0, 1] : Fin 2 → Fin S262144x64.rank)
  reducesTo_S262144x256_S262144_d1 : S262144x256.ReducesTo [1] S262144
  h_S_ : 0 < S_.numel
  bcast_S262144_S262144x1_0 : S262144.BroadcastsInDim S262144x1 (![0] : Fin 1 → Fin S262144x1.rank)
  bcast_S262144x1_S262144x64_0_1 : S262144x1.BroadcastsInDim S262144x64 (![0, 1] : Fin 2 → Fin S262144x64.rank)
  dot_S262144x64_S64x256_S262144x256_1_0_0_1_n_n_wf : DotDims.WF S262144x64 S64x256 S262144x256 [1] [0] [0] [1] [] []

variable [Facts₀]

def dot_S262144x64_S64x256_S262144x256_1_0_0_1_n_n : DotDims S262144x64 S64x256 S262144x256 where
  lhsContracting := [1]
  rhsContracting := [0]
  lhsNonContracting := [0]
  rhsNonContracting := [1]
  lhsBatch := []
  rhsBatch := []
  wf := dot_S262144x64_S64x256_S262144x256_1_0_0_1_n_n_wf

class Facts : Prop extends Facts₀ where

variable [Facts]
-- ==== Proof.RayStep.lean ====
/-
  One row of the ray step, as pure mathematics on the extended reals.

  A point's row z (64 coordinates) is tested against 256 half-spaces  (z · A_k) ≤ b_k.  The signed violation of
  constraint k is  s_k = (z · A_k) − b_k ;  it is violated when  s_k ≥ 0.  The row moves toward the pivot p along the
  ray  p − z  by the largest step over the violated constraints,  max_k (−s_k / den_k) · [s_k ≥ 0] , where the
  denominator  den_k = min ((p − z) · A_k, c)  is clamped below the negative constant c; it moves only if some
  constraint is violated:   out_j = z_j + [∃k, s_k ≥ 0] · (step · (p_j − z_j)).

  Two programs compute this row.  One contracts the ray with A directly, (p − z) · A_k; the other contracts p and z
  separately and subtracts, (p · A_k) − (z · A_k).  On finite reals these agree, by distributivity of the product over
  the difference under a finite sum; at an infinite entry they need not, which is where the inputs' finiteness is used.
  The same program writes the negation as 0 − s, turns the violation bit into 0 or 1 through a 32-bit integer, and decides
  "some constraint is violated" by asking whether the largest of the 0/1 values is positive: the small laws below say
  each of these is the plain form.

  The three float words both programs write (zero, the clamp, −∞) are kept as words: the same word stands on both sides
  and is never evaluated, except that zero is the real 0, −∞ is the bottom element and 1.0 is the real 1 where the order
  is consulted.
-/
import Idealize.ShloMosaic.PureOps.Ideal.Laws
import Idealize.ShloMosaic.Lib.ValueIdx
import Idealize.ShloMosaic.Lib.Affine

noncomputable section

open scoped BigOperators
open Idealize.ShloMosaic

namespace Cert.RayStep

/-! ## The words -/

/-- The word of +0.0: the real zero. -/
abbrev zeroW : EReal := Ideal.ofBits .f32 0x00000000#32
/-- The word of the clamp, the float nearest −1e-9 (the same word in both programs; its value is never needed). -/
abbrev clampW : EReal := Ideal.ofBits .f32 0xB089705F#32
/-- The word of −∞, the value every row maximum starts from. -/
abbrev negInfW : EReal := Ideal.ofBits .f32 0xFF800000#32
/-- The word of 1.0. -/
abbrev oneW : EReal := Ideal.ofBits .f32 0x3F800000#32

theorem zeroW_eq : zeroW = 0 := Ideal.ofBits_zero_f32
theorem negInfW_eq : negInfW = ⊥ := by simp [Ideal.ofBits, Ideal.ieee]
theorem oneW_eq : oneW = 1 := by simp [Ideal.ofBits, Ideal.ieee, -EReal.coe_mul]; norm_num

/-! ## The row -/

/-- Constraint value s is violated: the bit of s ≥ 0. -/
def violated (s : EReal) : BitVec 1 := Ideal.cmp .oge s zeroW

/-- A bit as the extended real 0 or 1. -/
def bitVal (c : BitVec 1) : EReal := ((c.toNat : ℝ) : EReal)

/-- The signed violation of constraint k by the row: (z · A_k) − b_k. -/
def viol (zr : Fin 64 → EReal) (a : Fin 64 → Fin 256 → EReal) (b : Fin 256 → EReal) (k : Fin 256) : EReal :=
  (∑ d : Fin 64, zr d * a d k) - b k

/-- The clamped denominator of constraint k: the ray p − z contracted with A_k, kept below the clamp. -/
def rayDenom (zr p : Fin 64 → EReal) (a : Fin 64 → Fin 256 → EReal) (k : Fin 256) : EReal :=
  min (∑ d : Fin 64, (p d - zr d) * a d k) clampW

/-- The step length: the largest of −s_k / den_k over the violated constraints (a satisfied one contributes 0), from −∞. -/
def stepLen (s den : Fin 256 → EReal) : EReal :=
  (Finset.univ : Finset (Fin 256)).fold max negInfW fun k => Ideal.div (-(s k)) (den k) * bitVal (violated (s k))

/-- 1 if some constraint is violated, else 0. -/
def anyViolated (s : Fin 256 → EReal) : EReal :=
  bitVal ((Finset.univ : Finset (Fin 256)).fold IntOp.ori 0#1 fun k => violated (s k))

/-- The row after the step, at coordinate j. -/
def rowOut (zr p : Fin 64 → EReal) (a : Fin 64 → Fin 256 → EReal) (b : Fin 256 → EReal) (j : Fin 64) : EReal :=
  zr j + anyViolated (viol zr a b) * (stepLen (viol zr a b) (rayDenom zr p a) * (p j - zr j))

/-! ## Distributivity over a finite sum of finite reals -/

/-- The coercion of the reals into the extended reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An extended real that is neither infinity. -/
def Fin' (x : EReal) : Prop := x ≠ ⊥ ∧ x ≠ ⊤

theorem Fin'.coe {x : EReal} (h : Fin' x) : ((x.toReal : ℝ) : EReal) = x := EReal.coe_toReal h.2 h.1

/-- For finite p, z, a: contracting the difference p − z with a is the difference of the two contractions. -/
theorem sum_sub_mul {n : ℕ} (p z a : Fin n → EReal) (hp : ∀ d, Fin' (p d)) (hz : ∀ d, Fin' (z d)) (ha : ∀ d, Fin' (a d)) :
    ∑ d, (p d - z d) * a d = ∑ d, p d * a d - ∑ d, z d * a d := by
  have e1 : ∑ d, (p d - z d) * a d = ∑ d, ((((p d).toReal - (z d).toReal) * (a d).toReal : ℝ) : EReal) :=
    Finset.sum_congr rfl fun d _ => by rw [EReal.coe_mul, EReal.coe_sub, (hp d).coe, (hz d).coe, (ha d).coe]
  have e2 : ∑ d, p d * a d = ∑ d, (((p d).toReal * (a d).toReal : ℝ) : EReal) :=
    Finset.sum_congr rfl fun d _ => by rw [EReal.coe_mul, (hp d).coe, (ha d).coe]
  have e3 : ∑ d, z d * a d = ∑ d, (((z d).toReal * (a d).toReal : ℝ) : EReal) :=
    Finset.sum_congr rfl fun d _ => by rw [EReal.coe_mul, (hz d).coe, (ha d).coe]
  rw [e1, e2, e3, ← coe_sum, ← coe_sum, ← coe_sum, ← EReal.coe_sub, ← Finset.sum_sub_distrib]
  exact congrArg _ (Finset.sum_congr rfl fun d _ => by ring)

/-! ## The small laws -/

/-- Subtracting from the zero word negates. -/
theorem zeroW_sub (x : EReal) : zeroW - x = -x := by rw [zeroW_eq, zero_sub]

/-- A bit widened to 32 bits and read as a signed integer is the bit read as a natural number. -/
theorem toInt_setWidth_bit (c : BitVec 1) : (((c.setWidth 32).toInt : ℝ) : EReal) = bitVal c := by
  rcases BitVec.eq_zero_or_eq_one c with rfl | rfl
  · show (((0 : Int) : ℝ) : EReal) = (((0 : Nat) : ℝ) : EReal); simp
  · show (((1 : Int) : ℝ) : EReal) = (((1 : Nat) : ℝ) : EReal); simp

/-- Two bits that are 1 together are equal. -/
theorem bit_ext {c c' : BitVec 1} (h : c = 1#1 ↔ c' = 1#1) : c = c' := by
  rcases BitVec.eq_zero_or_eq_one c with rfl | rfl <;> rcases BitVec.eq_zero_or_eq_one c' with rfl | rfl
  · rfl
  · exact absurd (h.mpr rfl) (by decide)
  · exact absurd (h.mp rfl) (by decide)
  · rfl

/-- The disjunction of a family of bits is 1 exactly when one of them is. -/
theorem fold_ori_eq_one (m : Fin 256 → BitVec 1) :
    (Finset.univ : Finset (Fin 256)).fold IntOp.ori 0#1 m = 1#1 ↔ ∃ k, m k = 1#1 := by
  have h := Finset.fold_op_rel_iff_or (op := IntOp.ori (w := 1)) (f := m) (b := 0#1) (s := (Finset.univ : Finset (Fin 256)))
    (r := fun _ v => v = 1#1) (fun {_ _ _} => IntOp.ori_eq_one) (c := 0#1)
  rw [h]
  constructor
  · rintro (h0 | ⟨k, -, hk⟩)
    · exact absurd h0 (by decide)
    · exact ⟨k, hk⟩
  · rintro ⟨k, hk⟩; exact Or.inr ⟨k, Finset.mem_univ k, hk⟩

/-- "The largest of the bits, written 1.0 / 0.0 and taken from −∞, is above zero" is the disjunction of the bits. -/
theorem max_select_pos (m : Fin 256 → BitVec 1) :
    Ideal.cmp .ogt ((Finset.univ : Finset (Fin 256)).fold max negInfW fun k => Scalar.select (m k) oneW zeroW) zeroW
      = (Finset.univ : Finset (Fin 256)).fold IntOp.ori 0#1 m := by
  apply bit_ext
  rw [fold_ori_eq_one]
  have hcmp : ∀ x : EReal, Ideal.cmp .ogt x zeroW = 1#1 ↔ zeroW < x := fun x => by
    show BitVec.ofBool (decide (zeroW < x)) = 1#1 ↔ zeroW < x
    by_cases hx : zeroW < x
    · rw [decide_eq_true hx]; exact ⟨fun _ => hx, fun _ => rfl⟩
    · rw [decide_eq_false hx]; exact ⟨fun h => absurd h (by decide), fun h => absurd h hx⟩
  rw [hcmp, Finset.lt_fold_max]
  constructor
  · rintro (h0 | ⟨k, -, hk⟩)
    · rw [zeroW_eq, negInfW_eq] at h0; exact absurd h0 (not_lt_bot)
    · refine ⟨k, ?_⟩
      by_contra hne
      rw [ValueIdx.eq_zero_of_ne_one hne, ValueIdx.select_zero] at hk
      exact lt_irrefl _ hk
  · rintro ⟨k, hk⟩
    refine Or.inr ⟨k, Finset.mem_univ k, ?_⟩
    rw [hk, ValueIdx.select_one, zeroW_eq, oneW_eq]
    exact zero_lt_one

/-! ## The row as the second program writes it -/

/-- The row as the program that contracts p and z separately writes it: pa_k stands for p · A_k, the negation is 0 − s, a
    bit becomes 0 or 1 through a 32-bit signed integer, and "some constraint is violated" is "the largest of the bits,
    written 1.0 / 0.0 and taken from −∞, is above zero". -/
def rowOutK (zr p : Fin 64 → EReal) (a : Fin 64 → Fin 256 → EReal) (b pa : Fin 256 → EReal) (j : Fin 64) : EReal :=
  zr j + ((((Ideal.cmp .ogt ((Finset.univ : Finset (Fin 256)).fold max negInfW fun k =>
                Scalar.select (violated (viol zr a b k)) oneW zeroW) zeroW).setWidth 32).toInt : ℝ) : EReal)
    * (((Finset.univ : Finset (Fin 256)).fold max negInfW fun k =>
          Ideal.div (zeroW - viol zr a b k) (min (pa k - ∑ d : Fin 64, zr d * a d k) clampW)
            * ((((violated (viol zr a b k)).setWidth 32).toInt : ℝ) : EReal))
        * (p j - zr j))

/-- On finite z, p and A, with pa the contraction of p with A, the two ways of writing the row agree: the difference of
    the two contractions is the contraction of the difference (`sum_sub_mul`), and the small laws above. -/
theorem rowOutK_eq (zr p : Fin 64 → EReal) (a : Fin 64 → Fin 256 → EReal) (b pa : Fin 256 → EReal) (j : Fin 64)
    (hz : ∀ d, Fin' (zr d)) (hp : ∀ d, Fin' (p d)) (ha : ∀ d k, Fin' (a d k))
    (hpa : ∀ k, pa k = ∑ d : Fin 64, p d * a d k) :
    rowOutK zr p a b pa j = rowOut zr p a b j := by
  have hf : (fun k : Fin 256 => Ideal.div (zeroW - viol zr a b k) (min (pa k - ∑ d : Fin 64, zr d * a d k) clampW)
            * ((((violated (viol zr a b k)).setWidth 32).toInt : ℝ) : EReal))
      = fun k => Ideal.div (-(viol zr a b k)) (rayDenom zr p a k) * bitVal (violated (viol zr a b k)) :=
    funext fun k => by
      unfold rayDenom
      rw [zeroW_sub, toInt_setWidth_bit, hpa, sum_sub_mul p zr (fun d => a d k) hp hz (fun d => ha d k)]
  unfold rowOutK rowOut anyViolated stepLen
  rw [hf, max_select_pos, toInt_setWidth_bit]

/-! ## The whole array -/

/-- Every row of z stepped: entry (n, j) is row n's step at coordinate j, with the pivot, the constraint matrix and the
    offsets shared by all rows. -/
def stepAll (z : (⟨2, ![262144, 64]⟩ : Shape).Idx → EReal) (p : (⟨1, ![64]⟩ : Shape).Idx → EReal)
    (a : (⟨2, ![64, 256]⟩ : Shape).Idx → EReal) (b : (⟨1, ![256]⟩ : Shape).Idx → EReal) :
    (⟨2, ![262144, 64]⟩ : Shape).Idx → EReal :=
  fun i => rowOut (fun d => z (ValueIdx.ix2 (i 0) d)) (fun d => p (ValueIdx.ix1 d)) (fun d k => a (ValueIdx.ix2 d k))
    (fun k => b (ValueIdx.ix1 k)) (i 1)

end Cert.RayStep

end
-- ==== Proof.RefRow.lean ====
/-
  The reference program computes the ray step row by row: its result array is `stepAll` of its four arguments.

  Read one operation at a time at entry (n, k) of the 262144 × 256 intermediate arrays: the first matrix product minus
  the broadcast offsets is the signed violation s_k of row n; the second matrix product, of the broadcast pivot minus z,
  is the ray contracted with A_k; the quotient of the negated violation by the clamped contraction, times the violation
  bit as 0 or 1, is the k-th candidate step; the row maximum from −∞ over k is the step length and the row disjunction of
  the bits says whether the row moves. Both are broadcast back along the 64 columns.
-/
import proofs.«119957_j55843164783016_2_alg».proof.Proof.Gen.ReferenceIdeal.Read
import proofs.«119957_j55843164783016_2_alg».proof.Proof.RayStep

noncomputable section

open scoped BigOperators
open Idealize.ShloMosaic Idealize.ShloMosaic.ValueIdx

namespace Cert.RayStep.Ref

open Cert.ReferenceIdeal Cert.ReferenceIdeal.Gen Cert.ReferenceIdeal.Read

/-! ## Where each operation reads its operands, by coordinates -/

/-- The products' left operand at (n, k), contraction coordinate d, is entry (n, d); the right is entry (d, k). -/
theorem lidx0 (n : Fin 262144) (k : Fin 256) (d : Fin 64) : lidx_main_v0 (ix2 n k) d = ix2 n d :=
  funext fun a => by match a with | ⟨0, _⟩ => rfl | ⟨1, _⟩ => rfl
theorem ridx0 (n : Fin 262144) (k : Fin 256) (d : Fin 64) : ridx_main_v0 (ix2 n k) d = ix2 d k :=
  funext fun a => by match a with | ⟨0, _⟩ => rfl | ⟨1, _⟩ => rfl
theorem lidx9 (n : Fin 262144) (k : Fin 256) (d : Fin 64) : lidx_main_v9 (ix2 n k) d = ix2 n d :=
  funext fun a => by match a with | ⟨0, _⟩ => rfl | ⟨1, _⟩ => rfl
theorem ridx9 (n : Fin 262144) (k : Fin 256) (d : Fin 64) : ridx_main_v9 (ix2 n k) d = ix2 d k :=
  funext fun a => by match a with | ⟨0, _⟩ => rfl | ⟨1, _⟩ => rfl
/-- The offsets broadcast over the rows read offset k at (n, k). -/
theorem idx12 (n : Fin 262144) (k : Fin 256) : idx_main_v1 (idx_main_v2 (ix2 n k)) = ix1 k :=
  funext fun a => by match a with | ⟨0, _⟩ => rfl
/-- The pivot broadcast over the rows reads coordinate d at (n, d). -/
theorem idx67 (n : Fin 262144) (d : Fin 64) : idx_main_v6 (idx_main_v7 (ix2 n d)) = ix1 d :=
  funext fun a => by match a with | ⟨0, _⟩ => rfl
/-- A per-row value broadcast over the 64 columns reads row n at (n, j). -/
theorem idx1823 (n : Fin 262144) (j : Fin 64) : idx_main_v18 (idx_main_v23 (ix2 n j)) = ix1 n :=
  funext fun a => by match a with | ⟨0, _⟩ => rfl
theorem idx2021 (n : Fin 262144) (j : Fin 64) : idx_main_v20 (idx_main_v21 (ix2 n j)) = ix1 n :=
  funext fun a => by match a with | ⟨0, _⟩ => rfl

variable (x0 : (⟨S262144x64, .f32⟩ : BufTy).Contents (Elt Ideal)) (x1 : (⟨S64, .f32⟩ : BufTy).Contents (Elt Ideal))
  (x2 : (⟨S64x256, .f32⟩ : BufTy).Contents (Elt Ideal)) (x3 : (⟨S256, .f32⟩ : BufTy).Contents (Elt Ideal))

/-- Row n of z, the pivot, the constraint matrix and the offsets, by coordinates. -/
abbrev zr (n : Fin 262144) : Fin 64 → EReal := fun d => x0 (ix2 n d)
abbrev pv : Fin 64 → EReal := fun d => x1 (ix1 d)
abbrev am : Fin 64 → Fin 256 → EReal := fun d k => x2 (ix2 d k)
abbrev bv : Fin 256 → EReal := fun k => x3 (ix1 k)

/-! ## The stages at an entry -/

/-- The first product minus the offsets, at (n, k): the signed violation of constraint k by row n. -/
theorem v3_at (n : Fin 262144) (k : Fin 256) :
    val_main_v3 (F := Ideal) x0 x2 x3 (ix2 n k) = viol (zr x0 n) (am x2) (bv x3) k := by
  rw [val_main_v3_apply, val_main_v0_apply, val_main_v2_apply, val_main_v1_apply, idx12]
  simp only [lidx0, ridx0]
  rfl

/-- The violation bit at (n, k). -/
theorem v5_at (n : Fin 262144) (k : Fin 256) :
    val_main_v5 (F := Ideal) x0 x2 x3 (ix2 n k) = violated (viol (zr x0 n) (am x2) (bv x3) k) := by
  rw [val_main_v5_apply, v3_at, val_main_v4_apply, val_main_cst_apply]
  rfl

/-- The ray at (n, d): the pivot's coordinate minus z's. -/
theorem v8_at (n : Fin 262144) (d : Fin 64) :
    val_main_v8 (F := Ideal) x0 x1 (ix2 n d) = x1 (ix1 d) - x0 (ix2 n d) := by
  rw [val_main_v8_apply, val_main_v7_apply, val_main_v6_apply, idx67]
  rfl

/-- The clamped contraction of the ray with A_k, at (n, k). -/
theorem v11_at (n : Fin 262144) (k : Fin 256) :
    val_main_v11 (F := Ideal) x0 x1 x2 (ix2 n k) = rayDenom (zr x0 n) (pv x1) (am x2) k := by
  rw [val_main_v11_apply, val_main_v9_apply, val_main_v10_apply, val_main_cst_0_apply]
  simp only [lidx9, ridx9, v8_at]
  rfl

/-- The k-th candidate step of row n. -/
theorem v15_at (n : Fin 262144) (k : Fin 256) :
    val_main_v15 (F := Ideal) x0 x1 x2 x3 (ix2 n k)
      = Ideal.div (-(viol (zr x0 n) (am x2) (bv x3) k)) (rayDenom (zr x0 n) (pv x1) (am x2) k)
          * bitVal (violated (viol (zr x0 n) (am x2) (bv x3) k)) := by
  rw [val_main_v15_apply, val_main_v13_apply, val_main_v12_apply, val_main_v14_apply, v3_at, v5_at, v11_at]
  rfl

/-! ## The two row reductions -/

/-- Dropping axis 1 of a 262144 × 256 index set. -/
theorem reduces : S262144x256.Reduces [1] S262144 := by decide

/-- Entry (n) of the reduced array with coordinate k inserted on the dropped axis is entry (n, k). -/
theorem lift_eq (n : Fin 262144) (k : Fin 256) : reduces.lift (ix1 n) k = ix2 n k := by
  funext c; apply Fin.ext
  match c with
  | ⟨0, _⟩ => rfl
  | ⟨1, _⟩ => rfl

/-- The row maximum: the step length of row n. -/
theorem v16_at (n : Fin 262144) :
    val_main_v16 (F := Ideal) x0 x1 x2 x3 (ix1 n)
      = stepLen (viol (zr x0 n) (am x2) (bv x3)) (rayDenom (zr x0 n) (pv x1) (am x2)) := by
  have hf : (val_main_v15 (F := Ideal) x0 x1 x2 x3 ∘ reduces.lift (ix1 n))
      = fun k : Fin 256 => Ideal.div (-(viol (zr x0 n) (am x2) (bv x3) k)) (rayDenom (zr x0 n) (pv x1) (am x2) k)
          * bitVal (violated (viol (zr x0 n) (am x2) (bv x3) k)) :=
    funext fun (k : Fin 256) => by
      show val_main_v15 (F := Ideal) x0 x1 x2 x3 (reduces.lift (ix1 n) k) = _
      rw [lift_eq, v15_at]
  unfold val_main_v16
  rw [Host.reduce_eq_fold_single FloatOps.maximumf _ _ _ reduces h_S_ (ix1 n), hf]
  rfl

/-- The row disjunction: whether some constraint is violated by row n. -/
theorem v17_at (n : Fin 262144) :
    val_main_v17 (F := Ideal) x0 x2 x3 (ix1 n)
      = (Finset.univ : Finset (Fin 256)).fold IntOp.ori 0#1 fun k => violated (viol (zr x0 n) (am x2) (bv x3) k) := by
  have hf : (val_main_v5 (F := Ideal) x0 x2 x3 ∘ reduces.lift (ix1 n))
      = fun k : Fin 256 => violated (viol (zr x0 n) (am x2) (bv x3) k) :=
    funext fun (k : Fin 256) => by
      show val_main_v5 (F := Ideal) x0 x2 x3 (reduces.lift (ix1 n) k) = _
      rw [lift_eq, v5_at]
  unfold val_main_v17
  rw [Host.reduce_eq_fold_single IntOp.ori _ _ _ reduces h_S_ (ix1 n), hf]
  rfl

/-! ## The result -/

/-- THE REFERENCE'S RESULT is the stepped array. -/
theorem result_eq : val_main_v25 (F := Ideal) x0 x1 x2 x3 = stepAll x0 x1 x2 x3 := by
  funext i
  obtain ⟨n, j, rfl⟩ : ∃ (n : Fin 262144) (j : Fin 64), i = ix2 n j := ⟨i 0, i 1, eq_ix2 i⟩
  rw [val_main_v25_apply, val_main_v24_apply, val_main_v23_apply, val_main_v19_apply, val_main_v18_apply, idx1823,
    val_main_v22_apply, val_main_v21_apply, val_main_v20_apply, idx2021, v8_at, v16_at, v17_at]
  rfl

end Cert.RayStep.Ref

end
-- ==== Proof.BlockReads.lean ====
/-
  The second program's vector operations read at one entry of a 2048-row block.

  Layout: a per-row value kept as a 2048 × 1 column is the row's value at every column it is broadcast to, and the
  column is the 2048-vector it was cast from. Arithmetic: the 2048 × 64 by 64 × 256 matrix product into a zero
  accumulator is, at (r, k), the sum over the 64 contracted coordinates d of x(r, d) · y(d, k); the maximum over the 256
  columns of a 2048 × 256 block, from −∞, is at row r the fold of max over k of the block's entry (r, k).
-/
import proofs.«119957_j55843164783016_2_alg».proof.Proof.Gen.KernelIdeal.Skeleton
import proofs.«119957_j55843164783016_2_alg».proof.Proof.RayStep
import Idealize.ShloMosaic.Lib.ValueIdx
import Idealize.ShloMosaic.Lib.ValueLayout
import Idealize.ShloMosaic.Lib.Pipeline.Value
import Idealize.ShloMosaic.PureOps.Ideal.Laws

noncomputable section

open scoped BigOperators
open Idealize.ShloMosaic Idealize.ShloMosaic.ValueIdx

namespace Cert.RayStep.Block

open Cert.KernelIdeal Cert.KernelIdeal.Gen

/-! ## Columns -/

/-- An [a, 1] column broadcast over b columns reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An [a] vector cast to an [a, 1] column reads, at (p, u), the vector's entry p. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-! ## The matrix product -/

theorem lhs_0 (i : S2048x256.Idx) (q : dot_S2048x64_S64x256_S2048x256_1_0_0_1_n_n.contr.Idx) :
    (dot_S2048x64_S64x256_S2048x256_1_0_0_1_n_n.lhsIdx i q 0).val = (i 0).val := by
  unfold DotDims.lhsIdx
  rw [dif_neg (show ¬(0 : Fin S2048x64.rank) ∈ dot_S2048x64_S64x256_S2048x256_1_0_0_1_n_n.lhsBatch by decide),
    dif_pos (show (0 : Fin S2048x64.rank) ∈ dot_S2048x64_S64x256_S2048x256_1_0_0_1_n_n.lhsNonContracting by decide)]
  rfl
theorem lhs_1 (i : S2048x256.Idx) (q : dot_S2048x64_S64x256_S2048x256_1_0_0_1_n_n.contr.Idx) :
    (dot_S2048x64_S64x256_S2048x256_1_0_0_1_n_n.lhsIdx i q 1).val = (q ⟨0, by decide⟩).val :=
  dot_S2048x64_S64x256_S2048x256_1_0_0_1_n_n.lhsIdx_val_of_single rfl i q
theorem rhs_0 (i : S2048x256.Idx) (q : dot_S2048x64_S64x256_S2048x256_1_0_0_1_n_n.contr.Idx) :
    (dot_S2048x64_S64x256_S2048x256_1_0_0_1_n_n.rhsIdx i q 0).val = (q ⟨0, by decide⟩).val :=
  dot_S2048x64_S64x256_S2048x256_1_0_0_1_n_n.rhsIdx_val_of_single rfl i q
theorem rhs_1 (i : S2048x256.Idx) (q : dot_S2048x64_S64x256_S2048x256_1_0_0_1_n_n.contr.Idx) :
    (dot_S2048x64_S64x256_S2048x256_1_0_0_1_n_n.rhsIdx i q 1).val = (i 1).val := by
  unfold DotDims.rhsIdx
  rw [dif_neg (show ¬(1 : Fin S64x256.rank) ∈ dot_S2048x64_S64x256_S2048x256_1_0_0_1_n_n.rhsBatch by decide),
    dif_pos (show (1 : Fin S64x256.rank) ∈ dot_S2048x64_S64x256_S2048x256_1_0_0_1_n_n.rhsNonContracting by decide)]
  rfl

/-- The block's product with the constraint matrix into a zero accumulator, at (r, k): the contraction over d. -/
theorem matmul_at (x0 : FVec Ideal S2048x64 .f32) (x2 : FVec Ideal S64x256 .f32) (r : Fin 2048) (k : Fin 256) :
    matmul dot_S2048x64_S64x256_S2048x256_1_0_0_1_n_n (some .fp32) x0 x2 (constant (F := Ideal) S2048x256 .f32 0x00000000#32) (ix2 r k)
      = ∑ d : Fin 64, x0 (ix2 r d) * x2 (ix2 d k) := by
  simp only [matmul]
  rw [Ideal.matmul_constant_zero_apply, ← Equiv.sum_comp (contrEquiv1 dot_S2048x64_S64x256_S2048x256_1_0_0_1_n_n 64 rfl rfl).symm]
  refine Finset.sum_congr rfl fun d _ => ?_
  have hk := contrEquiv1_symm_val dot_S2048x64_S64x256_S2048x256_1_0_0_1_n_n 64 rfl rfl d
  have el : dot_S2048x64_S64x256_S2048x256_1_0_0_1_n_n.lhsIdx (ix2 r k) ((contrEquiv1 dot_S2048x64_S64x256_S2048x256_1_0_0_1_n_n 64 rfl rfl).symm d) = ix2 r d :=
    funext fun a => Fin.ext (by
      match a with
      | ⟨0, _⟩ => exact lhs_0 _ _
      | ⟨1, _⟩ => exact (lhs_1 _ _).trans hk)
  have er : dot_S2048x64_S64x256_S2048x256_1_0_0_1_n_n.rhsIdx (ix2 r k) ((contrEquiv1 dot_S2048x64_S64x256_S2048x256_1_0_0_1_n_n 64 rfl rfl).symm d) = ix2 d k :=
    funext fun a => Fin.ext (by
      match a with
      | ⟨0, _⟩ => exact (rhs_0 _ _).trans hk
      | ⟨1, _⟩ => exact rhs_1 _ _)
  rw [el, er]

/-! ## The row maximum -/

/-- Row r of the reduced vector with coordinate k inserted on the dropped axis is entry (r, k). -/
theorem lift_eq (r : Fin 2048) (k : Fin 256) : reduces_S2048x256_S2048.lift (ix1 r) k = ix2 r k := by
  funext c; apply Fin.ext
  match c with
  | ⟨0, _⟩ => rfl
  | ⟨1, _⟩ => rfl

/-- The maximum over the 256 columns from −∞, at row r. -/
theorem rowmax_at (src : FVec Ideal S2048x256 .f32) (hφ : FTy.f32 = FTy.f32 ∨ FTy.f32 = FTy.bf16)
    (hacc : (0xFF800000#32 : BitVec 32) = 0xFF800000#32) (r : Fin 2048) :
    multiReduction (F := Ideal) .maximumf [1] S2048 src 0xFF800000#32 reduces_S2048x256_S2048 hφ hacc (ix1 r)
      = (Finset.univ : Finset (Fin 256)).fold max negInfW fun k => src (ix2 r k) := by
  have hf : (src ∘ reduces_S2048x256_S2048.lift (ix1 r)) = fun k : Fin 256 => src (ix2 r k) :=
    funext fun (k : Fin 256) => by
      show src (reduces_S2048x256_S2048.lift (ix1 r) k) = _
      rw [lift_eq]
  refine (Ideal.multiReduction_maximumf_single src 0xFF800000#32 reduces_S2048x256_S2048 hφ hacc (ix1 r)).trans ?_
  rw [hf]
  rfl

end Cert.RayStep.Block

end
-- ==== Proof.Store.lean ====
/-
  What the second program's body stores, at entry (r, j) of a 2048-row block, is the row step as that program writes it:
  the body's one store is z + any · (step · (pivot − z)) over the block of z, the 1 × 64 pivot, the constraint matrix, the
  1 × 256 offsets and the 1 × 256 contraction of the pivot with the matrix, each read at the entry through the layout
  and arithmetic reads of the previous module.
-/
import proofs.«119957_j55843164783016_2_alg».proof.Proof.BlockReads

noncomputable section

open scoped BigOperators
open Idealize.ShloMosaic Idealize.ShloMosaic.ValueIdx

namespace Cert.RayStep.Block

open Cert.KernelIdeal Cert.KernelIdeal.Gen

/-- THE BODY'S STORE AT (r, j): row r of the block stepped, at coordinate j. -/
theorem store_at (x0 : FVec Ideal S2048x64 .f32) (x1 : FVec Ideal S1x64 .f32) (x2 : FVec Ideal S64x256 .f32)
    (x3 x4 : FVec Ideal S1x256 .f32) (r : Fin 2048) (j : Fin 64) :
    k0_pay1 (F := Ideal) x0 (k0_pay2 (F := Ideal) x0 x1 x2 x3 x4) (ix2 r j)
      = rowOutK (fun d => x0 (ix2 r d)) (fun d => x1 (ix2 (0 : Fin 1) d)) (fun d k => x2 (ix2 d k))
          (fun k => x3 (ix2 (0 : Fin 1) k)) (fun k => x4 (ix2 (0 : Fin 1) k)) j := by
  unfold k0_pay1 k0_pay2
  -- the store's outer shape, down to the two row maxima
  simp only [addf_apply, mulf_apply, subf_apply, cmpf_apply, sitofp_apply, extui_apply, broadcast_apply,
    broadcastTo_a1_ab_apply, shapeCast_a_a1_apply, broadcastTo_1b_ab_apply, shapeCast_self]
  -- each row maximum as a fold over the 256 constraints
  rw [rowmax_at, rowmax_at]
  -- the k-th candidate step and the k-th violation bit
  simp only [mulf_apply, subf_apply, divf_apply, minimumf_apply, cmpf_apply, select_apply, sitofp_apply, extui_apply,
    broadcast_apply, broadcastTo_1b_ab_apply, matmul_at]
  rfl

end Cert.RayStep.Block

end
-- ==== Proof.Blocks.lean ====
/-
  From blocks to the array.

  The second program's grid has 128 points. Point t works on rows 2048·t … 2048·t + 2047 of z: that block is fetched, the
  pivot (as a 1 × 64 row), the constraint matrix, the offsets (as a 1 × 256 row) and the pivot's contraction with the
  matrix (a 1 × 256 row the host computes once before the grid) are the same at every point, and the block written back
  is rows 2048·t … of the result. So what point t writes back is block t of the whole stepped array; the 128 blocks tile
  the 262144 rows (row n lies in block n / 2048), hence the result array after the run is the stepped array.
  The inputs' finiteness is used here, where the program's own way of writing the row meets the specification.
-/
import proofs.«119957_j55843164783016_2_alg».proof.Proof.Gen.KernelIdeal.Value
import proofs.«119957_j55843164783016_2_alg».proof.Proof.Store
import Idealize.ShloMosaic.Lib.StableHlo.Run
import Idealize.ShloMosaic.Lib.ValueLayout

noncomputable section

open scoped BigOperators
open Idealize.ShloMosaic Idealize.ShloMosaic.TcCoe Idealize.SL.Sem Idealize.ShloMosaic.ValueIdx
open Idealize.ShloMosaic.Pipeline (Dat)

namespace Cert.RayStep.Block

open Cert.KernelIdeal Cert.KernelIdeal.Gen Cert.KernelIdeal.Value

variable (m : (ℓ : Loc nD τ sig) → Buf (Elt Ideal) ℓ) (ρ : Dev nD → PrngReg)

theorem hz : (![0, 0] : Fin 2 → Nat) = fun _ => 0 := funext fun a => by fin_cases a <;> rfl

/-- The four arguments as launched, on core c: z, the pivot, the constraint matrix, the offsets. -/
abbrev zArg (c : Dev nD) : FVec Ideal S262144x64 .f32 := m ((c : Thread nD τ).loc main_arg0)
abbrev pArg (c : Dev nD) : FVec Ideal S64 .f32 := m ((c : Thread nD τ).loc main_arg1)
abbrev aArg (c : Dev nD) : FVec Ideal S64x256 .f32 := m ((c : Thread nD τ).loc main_arg2)
abbrev bArg (c : Dev nD) : FVec Ideal S256 .f32 := m ((c : Thread nD τ).loc main_arg3)

/-- The five input windows' blocks at point t. -/
abbrev zBlk (c : Dev nD) (t : Fin cfg0.N) : FVec Ideal S2048x64 .f32 := iblk m c 0 t
abbrev pBlk (c : Dev nD) (t : Fin cfg0.N) : FVec Ideal S1x64 .f32 := iblk m c 1 t
abbrev aBlk (c : Dev nD) (t : Fin cfg0.N) : FVec Ideal S64x256 .f32 := iblk m c 2 t
abbrev bBlk (c : Dev nD) (t : Fin cfg0.N) : FVec Ideal S1x256 .f32 := iblk m c 3 t
abbrev paBlk (c : Dev nD) (t : Fin cfg0.N) : FVec Ideal S1x256 .f32 := iblk m c 4 t

/-! ## The three arrays the host writes before the grid -/

/-- The three arrays the region finds that the host wrote: the pivot row, the offsets row, the pivot's products. -/
abbrev pRow (c : Dev nD) : FVec Ideal S1x64 .f32 := V m c main_v0
abbrev bRow (c : Dev nD) : FVec Ideal S1x256 .f32 := V m c main_v1
abbrev paRow (c : Dev nD) : FVec Ideal S1x256 .f32 := V m c main_v2

/-- The pivot as a 1 × 64 row. -/
theorem V_pivot (c : Dev nD) : pRow m c = shapeCast S1x64 (pArg m c) shapeCasts_S64_S1x64 := by
  show (V m c main_v0 : FVec Ideal S1x64 .f32) = _
  dsimp only [Gen.V, Gen.hostOps0]; after_results; rfl

/-- The offsets as a 1 × 256 row. -/
theorem V_offsets (c : Dev nD) : bRow m c = shapeCast S1x256 (bArg m c) shapeCasts_S256_S1x256 := by
  show (V m c main_v1 : FVec Ideal S1x256 .f32) = _
  dsimp only [Gen.V, Gen.hostOps0]; after_results; rfl

/-- The pivot row's product with the constraint matrix. -/
theorem V_pivotA (c : Dev nD) : paRow m c
    = Host.dotGeneral (F := Ideal) dot_S1x64_S64x256_S1x256_1_0_0_1_n_n (some .fp32)
        (shapeCast S1x64 (pArg m c) shapeCasts_S64_S1x64 : FVec Ideal S1x64 .f32) (aArg m c) := by
  show (V m c main_v2 : FVec Ideal S1x256 .f32) = _
  dsimp only [Gen.V, Gen.hostOps0]; after_results; rfl

theorem plhs_0 (i : S1x256.Idx) (q : dot_S1x64_S64x256_S1x256_1_0_0_1_n_n.contr.Idx) :
    (dot_S1x64_S64x256_S1x256_1_0_0_1_n_n.lhsIdx i q 0).val = (i 0).val := by
  unfold DotDims.lhsIdx
  rw [dif_neg (show ¬(0 : Fin S1x64.rank) ∈ dot_S1x64_S64x256_S1x256_1_0_0_1_n_n.lhsBatch by decide),
    dif_pos (show (0 : Fin S1x64.rank) ∈ dot_S1x64_S64x256_S1x256_1_0_0_1_n_n.lhsNonContracting by decide)]
  rfl
theorem plhs_1 (i : S1x256.Idx) (q : dot_S1x64_S64x256_S1x256_1_0_0_1_n_n.contr.Idx) :
    (dot_S1x64_S64x256_S1x256_1_0_0_1_n_n.lhsIdx i q 1).val = (q ⟨0, by decide⟩).val :=
  dot_S1x64_S64x256_S1x256_1_0_0_1_n_n.lhsIdx_val_of_single rfl i q
theorem prhs_0 (i : S1x256.Idx) (q : dot_S1x64_S64x256_S1x256_1_0_0_1_n_n.contr.Idx) :
    (dot_S1x64_S64x256_S1x256_1_0_0_1_n_n.rhsIdx i q 0).val = (q ⟨0, by decide⟩).val :=
  dot_S1x64_S64x256_S1x256_1_0_0_1_n_n.rhsIdx_val_of_single rfl i q
theorem prhs_1 (i : S1x256.Idx) (q : dot_S1x64_S64x256_S1x256_1_0_0_1_n_n.contr.Idx) :
    (dot_S1x64_S64x256_S1x256_1_0_0_1_n_n.rhsIdx i q 1).val = (i 1).val := by
  unfold DotDims.rhsIdx
  rw [dif_neg (show ¬(1 : Fin S64x256.rank) ∈ dot_S1x64_S64x256_S1x256_1_0_0_1_n_n.rhsBatch by decide),
    dif_pos (show (1 : Fin S64x256.rank) ∈ dot_S1x64_S64x256_S1x256_1_0_0_1_n_n.rhsNonContracting by decide)]
  rfl

/-- The host's product of a 1 × 64 row with the matrix, at (0, k): the contraction over d. -/
theorem hostdot_at (p : FVec Ideal S1x64 .f32) (a : FVec Ideal S64x256 .f32) (k : Fin 256) :
    Host.dotGeneral (F := Ideal) dot_S1x64_S64x256_S1x256_1_0_0_1_n_n (some .fp32) p a (ix2 (0 : Fin 1) k)
      = ∑ d : Fin 64, p (ix2 (0 : Fin 1) d) * a (ix2 d k) := by
  simp only [Host.dotGeneral]
  rw [Ideal.dotGeneral_apply, ← Equiv.sum_comp (contrEquiv1 dot_S1x64_S64x256_S1x256_1_0_0_1_n_n 64 rfl rfl).symm]
  refine Finset.sum_congr rfl fun d _ => ?_
  have hk := contrEquiv1_symm_val dot_S1x64_S64x256_S1x256_1_0_0_1_n_n 64 rfl rfl d
  have el : dot_S1x64_S64x256_S1x256_1_0_0_1_n_n.lhsIdx (ix2 (0 : Fin 1) k) ((contrEquiv1 dot_S1x64_S64x256_S1x256_1_0_0_1_n_n 64 rfl rfl).symm d) = ix2 (0 : Fin 1) d :=
    funext fun ax => Fin.ext (by
      match ax with
      | ⟨0, _⟩ => exact plhs_0 _ _
      | ⟨1, _⟩ => exact (plhs_1 _ _).trans hk)
  have er : dot_S1x64_S64x256_S1x256_1_0_0_1_n_n.rhsIdx (ix2 (0 : Fin 1) k) ((contrEquiv1 dot_S1x64_S64x256_S1x256_1_0_0_1_n_n 64 rfl rfl).symm d) = ix2 d k :=
    funext fun ax => Fin.ext (by
      match ax with
      | ⟨0, _⟩ => exact (prhs_0 _ _).trans hk
      | ⟨1, _⟩ => exact prhs_1 _ _)
  rw [el, er]

/-- The pivot's products row, at (0, k): the pivot contracted with column k of the matrix. -/
theorem paRow_at (c : Dev nD) (k : Fin 256) :
    paRow m c (ix2 (0 : Fin 1) k) = ∑ d : Fin 64, pArg m c (ix1 d) * aArg m c (ix2 d k) := by
  rw [V_pivotA, hostdot_at]
  exact Finset.sum_congr rfl fun d _ => by rw [shapeCast_a_1a_apply]

/-! ## The grid's index maps, decided once over the 128 points -/

/-- Windows 0 (z) and 5 (the result) are at block (t, 0) at point t; the four shared windows stay at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row r of block t is row 2048·t + r of the array. -/
def rowOf (t : Fin cfg0.N) (r : Fin 2048) : Fin 262144 :=
  ⟨2048 * t.val + r.val, by have hN : cfg0.N = 128 := N_0; have := t.isLt; have := r.isLt; omega⟩

/-! ## Each window's block, by coordinates -/

/-- Block t of z, at (r, d), is z at (2048·t + r, d). -/
theorem zblk_at (c : Dev nD) (t : Fin cfg0.N) (r : Fin 2048) (d : Fin 64) :
    zBlk m c t (ix2 r d) = zArg m c (ix2 (rowOf t r) d) := by
  obtain ⟨e0, e1, -⟩ := idx_facts t
  have hk : (((cfg0.win 0).blk t).view.emb (ix2 r d) : S262144x64.Idx) = ix2 (rowOf t r) d := by
    funext ax; apply Fin.ext
    match ax with
    | ⟨0, _⟩ => show win0_0.index t (0 : Fin 2) * 2048 + 1 * r.val = 2048 * t.val + r.val; rw [e0]; omega
    | ⟨1, _⟩ => show win0_0.index t (1 : Fin 2) * 64 + 1 * d.val = d.val; rw [e1]; omega
  show iblk m c 0 t (ix2 r d) = _
  unfold iblk
  rw [View.read_apply]
  show V m c main_arg0 (((cfg0.win 0).blk t).view.emb (ix2 r d)) = _
  rw [hk, V_main_arg0]

/-- The pivot window's block, at (0, d), is the pivot's coordinate d. -/
theorem pblk_at (c : Dev nD) (t : Fin cfg0.N) (d : Fin 64) :
    pBlk m c t (ix2 (0 : Fin 1) d) = pArg m c (ix1 d) := by
  obtain ⟨-, -, e0, e1, -⟩ := idx_facts t
  have hk : (((cfg0.win 1).blk t).view.emb (ix2 (0 : Fin 1) d) : S1x64.Idx) = ix2 (0 : Fin 1) d := by
    funext ax; apply Fin.ext
    match ax with
    | ⟨0, _⟩ => show win0_1.index t (0 : Fin 2) * 1 + 1 * 0 = 0; rw [e0]
    | ⟨1, _⟩ => show win0_1.index t (1 : Fin 2) * 64 + 1 * d.val = d.val; rw [e1]; omega
  show iblk m c 1 t (ix2 (0 : Fin 1) d) = _
  unfold iblk
  rw [View.read_apply]
  show pRow m c (((cfg0.win 1).blk t).view.emb (ix2 (0 : Fin 1) d)) = _
  rw [hk, V_pivot, shapeCast_a_1a_apply]

/-- The matrix window's block is the matrix. -/
theorem ablk_at (c : Dev nD) (t : Fin cfg0.N) (d : Fin 64) (k : Fin 256) :
    aBlk m c t (ix2 d k) = aArg m c (ix2 d k) := by
  obtain ⟨-, -, -, -, e0, e1, -⟩ := idx_facts t
  have hk : (((cfg0.win 2).blk t).view.emb (ix2 d k) : S64x256.Idx) = ix2 d k := by
    funext ax; apply Fin.ext
    match ax with
    | ⟨0, _⟩ => show win0_2.index t (0 : Fin 2) * 64 + 1 * d.val = d.val; rw [e0]; omega
    | ⟨1, _⟩ => show win0_2.index t (1 : Fin 2) * 256 + 1 * k.val = k.val; rw [e1]; omega
  show iblk m c 2 t (ix2 d k) = _
  unfold iblk
  rw [View.read_apply]
  show V m c main_arg2 (((cfg0.win 2).blk t).view.emb (ix2 d k)) = _
  rw [hk, V_main_arg2]

/-- The offsets window's block, at (0, k), is offset k. -/
theorem bblk_at (c : Dev nD) (t : Fin cfg0.N) (k : Fin 256) :
    bBlk m c t (ix2 (0 : Fin 1) k) = bArg m c (ix1 k) := by
  obtain ⟨-, -, -, -, -, -, e0, e1, -⟩ := idx_facts t
  have hk : (((cfg0.win 3).blk t).view.emb (ix2 (0 : Fin 1) k) : S1x256.Idx) = ix2 (0 : Fin 1) k := by
    funext ax; apply Fin.ext
    match ax with
    | ⟨0, _⟩ => show win0_3.index t (0 : Fin 2) * 1 + 1 * 0 = 0; rw [e0]
    | ⟨1, _⟩ => show win0_3.index t (1 : Fin 2) * 256 + 1 * k.val = k.val; rw [e1]; omega
  show iblk m c 3 t (ix2 (0 : Fin 1) k) = _
  unfold iblk
  rw [View.read_apply]
  show bRow m c (((cfg0.win 3).blk t).view.emb (ix2 (0 : Fin 1) k)) = _
  rw [hk, V_offsets, shapeCast_a_1a_apply]

/-- The fifth window's block, at (0, k), is the pivot contracted with column k of the matrix. -/
theorem pablk_at (c : Dev nD) (t : Fin cfg0.N) (k : Fin 256) :
    paBlk m c t (ix2 (0 : Fin 1) k) = ∑ d : Fin 64, pArg m c (ix1 d) * aArg m c (ix2 d k) := by
  obtain ⟨-, -, -, -, -, -, -, -, e0, e1, -⟩ := idx_facts t
  have hk : (((cfg0.win 4).blk t).view.emb (ix2 (0 : Fin 1) k) : S1x256.Idx) = ix2 (0 : Fin 1) k := by
    funext ax; apply Fin.ext
    match ax with
    | ⟨0, _⟩ => show win0_4.index t (0 : Fin 2) * 1 + 1 * 0 = 0; rw [e0]
    | ⟨1, _⟩ => show win0_4.index t (1 : Fin 2) * 256 + 1 * k.val = k.val; rw [e1]; omega
  show iblk m c 4 t (ix2 (0 : Fin 1) k) = _
  unfold iblk
  rw [View.read_apply]
  show paRow m c (((cfg0.win 4).blk t).view.emb (ix2 (0 : Fin 1) k)) = _
  rw [hk, paRow_at]

/-! ## What point t writes back -/

section Written

variable (c : Dev nD) (hzf : ∀ i, Fin' (zArg m c i)) (hpf : ∀ i, Fin' (pArg m c i)) (haf : ∀ i, Fin' (aArg m c i))

/-- The stepped array of the four arguments as the program was launched with them. -/
abbrev stepped : FVec Ideal S262144x64 .f32 := stepAll (zArg m c) (pArg m c) (aArg m c) (bArg m c)

include hzf hpf haf in
/-- WHAT POINT t WRITES BACK is block t of the stepped array. -/
theorem flushed_eq (t : Fin cfg0.N) :
    (dats m 0 c).flushed 5 t = ((cfg0.win 5).blk t).view.read (Elt Ideal) (stepped m c) := by
  obtain ⟨-, -, -, -, -, -, -, -, -, -, e0, e1⟩ := idx_facts t
  rw [flushed5]
  unfold out0_5
  rw [View.canon_unit_zero hz]
  simp only [View.ld_unit_zero (S := S2048x64) hz, View.ld_unit_zero (S := S1x64) hz,
    View.ld_unit_zero (S := S64x256) hz, View.ld_unit_zero (S := S1x256) hz]
  funext y
  obtain ⟨r, j, rfl⟩ : ∃ (r : Fin 2048) (j : Fin 64), (y : S2048x64.Idx) = ix2 r j := ⟨y 0, y 1, eq_ix2 y⟩
  show k0_pay1 (F := Ideal) (zBlk m c t) (k0_pay2 (F := Ideal) (zBlk m c t) (pBlk m c t) (aBlk m c t) (bBlk m c t)
        (paBlk m c t)) (ix2 r j)
      = stepped m c (((cfg0.win 5).blk t).view.emb (ix2 r j))
  have hemb : (((cfg0.win 5).blk t).view.emb (ix2 r j) : S262144x64.Idx) = ix2 (rowOf t r) j := by
    funext ax; apply Fin.ext
    match ax with
    | ⟨0, _⟩ => show win0_5.index t (0 : Fin 2) * 2048 + 1 * r.val = 2048 * t.val + r.val; rw [e0]; omega
    | ⟨1, _⟩ => show win0_5.index t (1 : Fin 2) * 64 + 1 * j.val = j.val; rw [e1]; omega
  rw [hemb]
  refine (store_at (zBlk m c t) (pBlk m c t) (aBlk m c t) (bBlk m c t) (paBlk m c t) r j).trans ?_
  have h0 : (fun d : Fin 64 => zBlk m c t (ix2 r d)) = fun d => zArg m c (ix2 (rowOf t r) d) :=
    funext fun d => zblk_at m c t r d
  have h1 : (fun d : Fin 64 => pBlk m c t (ix2 (0 : Fin 1) d)) = fun d => pArg m c (ix1 d) :=
    funext fun d => pblk_at m c t d
  have h2 : (fun (d : Fin 64) (k : Fin 256) => aBlk m c t (ix2 d k)) = fun d k => aArg m c (ix2 d k) :=
    funext fun d => funext fun k => ablk_at m c t d k
  have h3 : (fun k : Fin 256 => bBlk m c t (ix2 (0 : Fin 1) k)) = fun k => bArg m c (ix1 k) :=
    funext fun k => bblk_at m c t k
  have h4 : (fun k : Fin 256 => paBlk m c t (ix2 (0 : Fin 1) k))
      = fun k => ∑ d : Fin 64, pArg m c (ix1 d) * aArg m c (ix2 d k) :=
    funext fun k => pablk_at m c t k
  rw [h0, h1, h2, h3, h4]
  exact rowOutK_eq _ _ _ _ _ j (fun d => hzf _) (fun d => hpf _) (fun d k => haf _) (fun k => rfl)

/-! ## The blocks tile the rows -/

/-- An entry of the array is in point t's block iff each coordinate is in the block's range on its axis. -/
theorem mem_blk (t : Fin cfg0.N) (i : S262144x64.Idx) :
    i ∈ ((cfg0.win 5).blk t).view.set ↔ ∀ a : Fin 2, win0_5.index t a * S2048x64.size a ≤ (i a).val
      ∧ (i a).val < win0_5.index t a * S2048x64.size a + S2048x64.size a := by
  show i ∈ ((View.whole main_v3).slice (win0_5.rect t)).set ↔ _
  rw [View.set_slice_whole, Rect.mem_set_unit]
  exact Iff.rfl

/-- Row n lies in block n / 2048. -/
theorem cover (i : S262144x64.Idx) :
    ∃ t : Fin cfg0.N, (cfg0.win 5).flush t = true ∧ i ∈ ((cfg0.win 5).blk t).view.set := by
  have hN : cfg0.N = 128 := N_0
  have hi0 : (i 0).val < 262144 := (i 0).isLt
  have hi1 : (i 1).val < 64 := (i 1).isLt
  obtain ⟨t, ht⟩ : ∃ t : Fin cfg0.N, t.val = (i 0).val / 2048 := ⟨⟨(i 0).val / 2048, by omega⟩, rfl⟩
  obtain ⟨-, -, -, -, -, -, -, -, -, -, e0, e1⟩ := idx_facts t
  refine ⟨t, flush0_5 t, ?_⟩
  rw [mem_blk]
  intro a
  match a with
  | ⟨0, _⟩ =>
    show win0_5.index t (0 : Fin 2) * 2048 ≤ (i 0).val ∧ (i 0).val < win0_5.index t (0 : Fin 2) * 2048 + 2048
    rw [e0, ht]; omega
  | ⟨1, _⟩ =>
    show win0_5.index t (1 : Fin 2) * 64 ≤ (i 1).val ∧ (i 1).val < win0_5.index t (1 : Fin 2) * 64 + 64
    rw [e1]; omega

include hzf hpf haf in
/-- THE RESULT ARRAY after the run is the stepped array. -/
theorem final : (dats m 0 c).arrAt 5 cfg0.N = stepped m c :=
  (dats m 0 c).arrAt_eq_of_cover 5 (stepped m c) (fun t _ => flushed_eq m c hzf hpf haf t) cover

end Written

/-! ## The run -/

/-- From a memory whose z, pivot and matrix hold real numbers on every device, every weakly fair execution ends with the
    result array at the stepped array and the four arguments unchanged. -/
theorem run
    (hzf : ∀ (c : Dev nD) i, Fin' (zArg m c i)) (hpf : ∀ (c : Dev nD) i, Fin' (pArg m c i))
    (haf : ∀ (c : Dev nD) i, Fin' (aArg m c i)) :
    θ_run defs (onTc (τ := τ) (main (F := Ideal))) ⟨m, fun _ => 0, ρ⟩ fun r => ∀ c : Dev nD,
      r.2.mem ((c : Thread nD τ).loc main_v3) = stepped m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c (hzf c) (hpf c) (haf c)), (h c).2⟩)
    (run_blocks m ρ)

end Cert.RayStep.Block

end
-- ==== Proof.FiniteInputs.lean ====
/-
  The precondition says every input entry is a real number.

  It is the conjunction of four "all entries have absolute value below +∞", one per input array. At the extended reals
  the absolute value of x is max x (−x), which is below the top element exactly when x is neither infinity.
-/
import proofs.«119957_j55843164783016_2_alg».proof.Proof.Gen.Pre_finite_inputs
import proofs.«119957_j55843164783016_2_alg».proof.Proof.RayStep
import Idealize.ShloMosaic.Lib.ReduceAll
import Idealize.ShloMosaic.Lib.ValueIdx

noncomputable section

open Idealize.ShloMosaic Idealize.ShloMosaic.ValueIdx

namespace Cert.RayStep.Finite

open Cert.Pre_finite_inputs Cert.Pre_finite_inputs.Gen

/-- The scalar shape has one index. -/
instance : Subsingleton S_.Idx := ⟨fun a b => funext fun d => d.elim0⟩

/-- The word of +∞ is the top element. -/
theorem infW_eq : Ideal.ofBits .f32 0x7F800000#32 = ⊤ := by simp [Ideal.ofBits, Ideal.ieee]

/-- An extended real whose absolute value compares below +∞ is neither infinity. -/
theorem fin_of_abs_lt (x : EReal) (h : Ideal.cmp .olt (max x (-x)) (Ideal.ofBits .f32 0x7F800000#32) = 1#1) : Fin' x := by
  rw [infW_eq] at h
  have hlt : max x (-x) < ⊤ := by
    by_contra hn
    have h0 : Ideal.cmp .olt (max x (-x)) ⊤ = 0#1 := by
      show BitVec.ofBool (decide (max x (-x) < ⊤)) = 0#1
      rw [decide_eq_false hn]; rfl
    rw [h0] at h
    exact absurd h (by decide)
  constructor
  · rintro rfl; simp at hlt
  · rintro rfl; simp at hlt

/-- One "all entries finite" conjunct, read back: every entry of the array is neither infinity. -/
theorem all_fin {s : Shape} (x : FVec Ideal s .f32) (hb : S_.BroadcastsInDim s (![] : Fin 0 → Fin s.rank))
    (axes : List (Fin s.rank)) (hr : s.ReducesTo axes S_) (hu : 0 < S_.numel)
    (e : Host.reduce IntOp.andi (cmpf .olt (Host.absf x) (broadcastInDim s ![] hb (constant (F := Ideal) S_ .f32 0x7F800000#32)))
          (constantI S_ 1 1#1) hr hu ix0 = 1#1) (i : s.Idx) : Fin' (x i) :=
  fin_of_abs_lt (x i) (Host.reduce_andi_all _ _ hr hu ix0 e i)

/-- THE PRECONDITION, READ BACK: all four arrays hold real numbers. -/
theorem of_pre (a0 : FVec Ideal S262144x64 .f32) (a1 : FVec Ideal S64 .f32) (a2 : FVec Ideal S64x256 .f32)
    (a3 : FVec Ideal S256 .f32) (h : fn (F := Ideal) a0 a1 a2 a3 = fun _ => 1#1) :
    (∀ i, Fin' (a0 i)) ∧ (∀ i, Fin' (a1 i)) ∧ (∀ i, Fin' (a2 i)) ∧ (∀ i, Fin' (a3 i)) := by
  have h0 := congrFun h ix0
  unfold fn fn_part1 at h0
  dsimp only at h0
  obtain ⟨h012, e3⟩ := IntOp.andi_eq_one.mp h0
  obtain ⟨h01, e2⟩ := IntOp.andi_eq_one.mp h012
  obtain ⟨e0, e1⟩ := IntOp.andi_eq_one.mp h01
  exact ⟨all_fin a0 _ _ _ _ e0, all_fin a1 _ _ _ _ e1, all_fin a2 _ _ _ _ e2, all_fin a3 _ _ _ _ e3⟩

end Cert.RayStep.Finite

end
-- ==== Proof.lean ====
/-
  The ray step: a tiled kernel against its whole-array reference, as extended reals.

  Both programs move every row z of a 262144 × 64 array toward a pivot p along the ray p − z, far enough to satisfy the
  violated ones among 256 half-space constraints (z · A_k) ≤ b_k:
      s_k = (z · A_k) − b_k,   den_k = min ((p − z) · A_k, c),   step = max_k (−s_k / den_k) · [s_k ≥ 0],
      out = z + [∃ k, s_k ≥ 0] · (step · (p − z)).
  The reference contracts the ray with A; the kernel contracts z with A once per block of 2048 rows, takes the pivot's
  contraction p · A from the host, and subtracts. On finite inputs the two denominators agree (the product distributes
  over the difference under a finite sum of reals), and the kernel's remaining spellings — 0 − s for −s, a bit turned
  into 0 or 1 through a 32-bit integer, "some bit is set" as "the largest of the bits as 1.0 / 0.0 is positive" — are the
  reference's at every extended real. The precondition (every input entry has absolute value below +∞) supplies the
  finiteness.

  The modules: the row and its laws (RayStep), the reference read stage by stage as that row (RefRow), the kernel's
  vector operations read at an entry (BlockReads) and its one store as the row (Store), every grid point's block as
  rows of the arguments and the 128 blocks tiling the result (Blocks), and the precondition read back (FiniteInputs).
  The idealization rewrote nothing, so the kernel as printed and as idealized are one text and `preserves` is trivial;
  the three frames are the generated ones.
-/
import proofs.«119957_j55843164783016_2_alg».proof.Defs
import proofs.«119957_j55843164783016_2_alg».proof.Proof.Gen.Kernel
import proofs.«119957_j55843164783016_2_alg».proof.Proof.Gen.Kernel.Skeleton
import proofs.«119957_j55843164783016_2_alg».proof.Proof.Gen.Kernel.Launch
import proofs.«119957_j55843164783016_2_alg».proof.Proof.Gen.Kernel.Points
import proofs.«119957_j55843164783016_2_alg».proof.Proof.Gen.Kernel.Frame
import proofs.«119957_j55843164783016_2_alg».proof.Proof.Gen.KernelIdeal
import proofs.«119957_j55843164783016_2_alg».proof.Proof.Gen.KernelIdeal.Skeleton
import proofs.«119957_j55843164783016_2_alg».proof.Proof.Gen.KernelIdeal.Launch
import proofs.«119957_j55843164783016_2_alg».proof.Proof.Gen.KernelIdeal.Points
import proofs.«119957_j55843164783016_2_alg».proof.Proof.Gen.KernelIdeal.Frame
import proofs.«119957_j55843164783016_2_alg».proof.Proof.Gen.ReferenceIdeal
import proofs.«119957_j55843164783016_2_alg».proof.Proof.Gen.Pre_finite_inputs
import proofs.«119957_j55843164783016_2_alg».proof.Proof.Gen.KernelIdeal.Value
import proofs.«119957_j55843164783016_2_alg».proof.Proof.Gen.ReferenceIdeal.Run
import proofs.«119957_j55843164783016_2_alg».proof.Proof.Gen.ReferenceIdeal.Read
import proofs.«119957_j55843164783016_2_alg».proof.Proof.RefRow
import proofs.«119957_j55843164783016_2_alg».proof.Proof.Blocks
import proofs.«119957_j55843164783016_2_alg».proof.Proof.FiniteInputs
import Idealize.ShloMosaic.Adequacy
import Idealize.ShloMosaic.Init

noncomputable section

namespace Cert.Proof

open Idealize.ShloMosaic Idealize.SL.Sem

/-- The kernel as printed runs, faults nowhere and leaves its arguments as they were. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From finite inputs both programs end with the stepped array: the kernel's 128 blocks tile it, the reference
    computes it stage by stage. -/
theorem algebraic : Cert.algebraic_KernelIdeal_ReferenceIdeal := by
  intro m ρ m' ρ' hpre hagree
  have hfin := fun c => Cert.RayStep.Finite.of_pre _ _ _ _ (hpre c)
  refine ⟨fun c => Cert.RayStep.Block.stepped m c,
    Cert.RayStep.Block.run m ρ (fun c => (hfin c).1) (fun c => (hfin c).2.1) (fun c => (hfin c).2.2.1), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, Cert.RayStep.Ref.result_eq, (hagree c).1, (hagree c).2.1,
    (hagree c).2.2.1, (hagree c).2.2.2]

theorem claim : Cert.Claim := ⟨Cert.Kernel.Gen.facts, Cert.KernelIdeal.Gen.facts, Cert.ReferenceIdeal.Gen.facts,
  Cert.Pre_finite_inputs.Gen.facts, frame_kernel, frame_kernelIdeal, frame_referenceIdeal, preserves, algebraic⟩

end Cert.Proof

end
